-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x128 .f32) (main_arg2 : FVec F S64x128 .f32) (main_arg3 : FVec F S128 .f32) (main_arg4 : FVec F S128x64 .f32) (main_arg5 : FVec F S128x64 .f32) (main_arg6 : FVec F S64 .f32) (main_arg7 : IVec S2x1600000 32) (main_arg8 : IVec S2x200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S1600000x128 : Shape := ⟨2, ![1600000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 91
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S2x200000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000x1, .f32⟩
  | .hbm, ⟨28, _⟩ => ⟨S_, .f32⟩
  | .hbm, ⟨29, _⟩ => ⟨S100000x1, .f32⟩
  | .hbm, ⟨30, _⟩ => ⟨S1600000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S1x1600000, .i32⟩
  | .hbm, ⟨39, _⟩ => ⟨S1600000, .i32⟩
  | .hbm, ⟨40, _⟩ => ⟨S1x1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000x1, .f32⟩
  | .hbm, ⟨57, _⟩ => ⟨S_, .f32⟩
  | .hbm, ⟨58, _⟩ => ⟨S100000x1, .f32⟩
  | .hbm, ⟨59, _⟩ => ⟨S1600000x1, .i32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S1x200000, .i32⟩
  | .hbm, ⟨68, _⟩ => ⟨S200000, .i32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x64, .f32⟩
  | .hbm, ⟨78, _⟩ => ⟨S1x200000, .i32⟩
  | .hbm, ⟨79, _⟩ => ⟨S200000, .i32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S200000x64, .f32⟩
  | .hbm, ⟨89, _⟩ => ⟨S200000x1, .f32⟩
  | .hbm, ⟨90, _⟩ => ⟨S200000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x1, .f32⟩
  | .local _ .vmem, ⟨23, _⟩ => ⟨S8000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S200000x1_S200000 : S200000x1.ShapeCasts S200000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S200000x64.size a
  hwx2_0 : ∀ i : grid2.Coords, EltTy.bits .f32 = 32 ∨ (Rect.block (s := S200000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S200000x64.size a
  hwx2_1 : ∀ i : grid2.Coords, EltTy.bits .f32 = 32 ∨ (Rect.block (s := S200000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S200000x1.size a
  hwx2_2 : ∀ i : grid2.Coords, EltTy.bits .f32 = 32 ∨ (Rect.block (s := S200000x1) S8000x1.size (cc2_transform_2 i) (hinb2_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S8000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S2x200000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000x1, .f32⟩
  | .hbm, ⟨28, _⟩ => ⟨S_, .f32⟩
  | .hbm, ⟨29, _⟩ => ⟨S100000x1, .f32⟩
  | .hbm, ⟨30, _⟩ => ⟨S1600000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000x1, .f32⟩
  | .hbm, ⟨65, _⟩ => ⟨S_, .f32⟩
  | .hbm, ⟨66, _⟩ => ⟨S100000x1, .f32⟩
  | .hbm, ⟨67, _⟩ => ⟨S1600000x1, .i32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S1x200000, .i32⟩
  | .hbm, ⟨81, _⟩ => ⟨S200000, .i32⟩
  | .hbm, ⟨82, _⟩ => ⟨S_, .i32⟩
  | .hbm, ⟨83, _⟩ => ⟨S200000, .i32⟩
  | .hbm, ⟨84, _⟩ => ⟨S200000, .i1⟩
  | .hbm, ⟨85, _⟩ => ⟨S_, .i32⟩
  | .hbm, ⟨86, _⟩ => ⟨S200000, .i32⟩
  | .hbm, ⟨87, _⟩ => ⟨S200000, .i32⟩
  | .hbm, ⟨88, _⟩ => ⟨S200000, .i32⟩
  | .hbm, ⟨89, _⟩ => ⟨S200000x1, .i32⟩
  | .hbm, ⟨90, _⟩ => ⟨S200000x64, .f32⟩
  | .hbm, ⟨91, _⟩ => ⟨S1x200000, .i32⟩
  | .hbm, ⟨92, _⟩ => ⟨S200000, .i32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x64, .f32⟩
  | .hbm, ⟨102, _⟩ => ⟨S200000x64, .f32⟩
  | .hbm, ⟨103, _⟩ => ⟨S_, .f32⟩
  | .hbm, ⟨104, _⟩ => ⟨S200000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S200000x1_S200000x64_1_0_n_n_0_1_164_wf : GatherDims.WF S100000x64 S200000x1 S200000x64 [1] [0] [] [0] [] 1 ![1, 64]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.KRun.lean ====
/-
  The idealized kernel's run with its result named.

  The program is three launches among four stretches of host operations. Its generated frame follows the contents of
  every buffer from the launch memory through those seven segments and ends at the valuation `W7`; the frame states only
  that the argument arrays read back as launched. Here the same launch is stated once more with one more conjunct: the
  result buffer ends at `W7`'s contents. Everything else in the value proof is about what `W7` holds there.
-/
import proofs.«160332_j16192026706661_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument array as launched. -/
theorem run_main : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Hand

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.SageSpec.lean ====
/-
  One layer of neighbourhood averaging followed by two linear maps, read at one entry.

  For a matrix of averaged neighbour features M : [N, K], the node features X : [N, K], two weight matrices
  Wl, Wr : [K, D] and a bias b : [D], the layer's value at (r, q) is
      (∑ i, M[r,i] · Wl[i,q]  +  ∑ i, X[r,i] · Wr[i,q])  +  b[q]
  on the extended reals, optionally followed by a maximum with zero. A tile computes the same entry from rows of M and X:
  two matrix products into a zero accumulator with the operands narrowed to bf16 first (a change of format is the
  identity at the ideal values), their sum, the bias re-laid as one row and spread over the tile's rows. The value at
  row r uses row r of M and of X only, which is what lets a tile of rows stand for the same rows of the whole array.
  No entry needs to be finite: only the reading of each operation at an index is used, never a rearrangement of sums.

  Also here: a row's dot product — the sum over the lane axis of the entrywise product of two [T, K] tiles, kept as a
  column [T, 1] — read at an entry.
-/
import proofs.«160332_j16192026706661_2_alg».proof.Proof.LibMlpAt
import proofs.«160332_j16192026706661_2_alg».proof.Proof.LibKeepdims

noncomputable section

open scoped BigOperators

namespace Cert.Sage

open Idealize.ShloMosaic Idealize.ShloMosaic.ValueIdx Cert.Mlp

/-- The affine part of the layer at (r, q). -/
def affAt {N K D : Nat} (M X : FVec Ideal ⟨2, ![N, K]⟩ .f32) (Wl Wr : FVec Ideal ⟨2, ![K, D]⟩ .f32) (b : FVec Ideal ⟨1, ![D]⟩ .f32)
    (r : Fin N) (q : Fin D) : Ideal .f32 :=
  ((∑ i : Fin K, M (ix2 r i) * Wl (ix2 i q)) + (∑ i : Fin K, X (ix2 r i) * Wr (ix2 i q))) + b (ix1 q)

/-- The affine part at row r reads only row r of M and of X, the weights and the bias entry by entry: operands that
    agree there give the same value. -/
theorem affAt_congr {N N' K D : Nat} (M X : FVec Ideal ⟨2, ![N, K]⟩ .f32) (M' X' : FVec Ideal ⟨2, ![N', K]⟩ .f32)
    (Wl Wr Wl' Wr' : FVec Ideal ⟨2, ![K, D]⟩ .f32) (b b' : FVec Ideal ⟨1, ![D]⟩ .f32) (r : Fin N) (r' : Fin N') (q : Fin D)
    (hM : ∀ i : Fin K, M (ix2 r i) = M' (ix2 r' i)) (hX : ∀ i : Fin K, X (ix2 r i) = X' (ix2 r' i))
    (hWl : ∀ i : Fin K, Wl (ix2 i q) = Wl' (ix2 i q)) (hWr : ∀ i : Fin K, Wr (ix2 i q) = Wr' (ix2 i q))
    (hb : b (ix1 q) = b' (ix1 q)) :
    affAt M X Wl Wr b r q = affAt M' X' Wl' Wr' b' r' q := by
  unfold affAt
  simp only [hM, hX, hWl, hWr, hb]

/-- The layer as a whole array: the affine part at every entry. -/
def lin {N K D : Nat} (M X : FVec Ideal ⟨2, ![N, K]⟩ .f32) (Wl Wr : FVec Ideal ⟨2, ![K, D]⟩ .f32) (b : FVec Ideal ⟨1, ![D]⟩ .f32) :
    FVec Ideal ⟨2, ![N, D]⟩ .f32 := fun j => affAt M X Wl Wr b (j 0) (j 1)

/-- The layer followed by the rectifier, as a whole array. -/
def linRelu {N K D : Nat} (M X : FVec Ideal ⟨2, ![N, K]⟩ .f32) (Wl Wr : FVec Ideal ⟨2, ![K, D]⟩ .f32) (b : FVec Ideal ⟨1, ![D]⟩ .f32) :
    FVec Ideal ⟨2, ![N, D]⟩ .f32 := fun j => max (affAt M X Wl Wr b (j 0) (j 1)) (Ideal.ofBits .f32 0x00000000#32)

theorem lin_ix2 {N K D : Nat} (M X : FVec Ideal ⟨2, ![N, K]⟩ .f32) (Wl Wr : FVec Ideal ⟨2, ![K, D]⟩ .f32) (b : FVec Ideal ⟨1, ![D]⟩ .f32)
    (r : Fin N) (q : Fin D) : lin M X Wl Wr b (ix2 r q) = affAt M X Wl Wr b r q := rfl

theorem linRelu_ix2 {N K D : Nat} (M X : FVec Ideal ⟨2, ![N, K]⟩ .f32) (Wl Wr : FVec Ideal ⟨2, ![K, D]⟩ .f32) (b : FVec Ideal ⟨1, ![D]⟩ .f32)
    (r : Fin N) (q : Fin D) : linRelu M X Wl Wr b (ix2 r q) = max (affAt M X Wl Wr b r q) (Ideal.ofBits .f32 0x00000000#32) := rfl

/-- A tile's spelling of the affine part: two products of bf16-narrowed operands into zero, added, plus the bias
    re-laid as a row and spread over the rows. At (p, q) it is the affine part of the tile's own rows. -/
theorem tile_aff_at {T K D : Nat} (w : DotDims.WF ⟨2, ![T, K]⟩ ⟨2, ![K, D]⟩ ⟨2, ![T, D]⟩ [1] [0] [0] [1] [] [])
    (hc : (⟨1, ![D]⟩ : Shape).ShapeCasts ⟨2, ![1, D]⟩) (hb : (⟨2, ![1, D]⟩ : Shape).Broadcasts ⟨2, ![T, D]⟩)
    (hlt : FTy.bf16.bits < FTy.f32.bits)
    (x0 x1 : FVec Ideal ⟨2, ![T, K]⟩ .f32) (wl wr : FVec Ideal ⟨2, ![K, D]⟩ .f32) (b : FVec Ideal ⟨1, ![D]⟩ .f32) (p : Fin T) (q : Fin D) :
    addf (addf (matmul (D2 w) none (truncf .bf16 x0 hlt) (truncf .bf16 wl hlt) (constant ⟨2, ![T, D]⟩ .f32 0x00000000#32))
          (matmul (D2 w) none (truncf .bf16 x1 hlt) (truncf .bf16 wr hlt) (constant ⟨2, ![T, D]⟩ .f32 0x00000000#32)))
        (broadcastTo ⟨2, ![T, D]⟩ (shapeCast ⟨2, ![1, D]⟩ b hc) hb) (ix2 p q)
      = affAt x0 x1 wl wr b p q := by
  unfold affAt
  rw [addf_apply, addf_apply, matmul_zero_at, matmul_zero_at, broadcastTo_1b_ab_apply, shapeCast_a_1a_apply]
  simp only [truncf_apply]

/-- The same followed by a maximum with a splat zero. -/
theorem tile_relu_at {T K D : Nat} (w : DotDims.WF ⟨2, ![T, K]⟩ ⟨2, ![K, D]⟩ ⟨2, ![T, D]⟩ [1] [0] [0] [1] [] [])
    (hc : (⟨1, ![D]⟩ : Shape).ShapeCasts ⟨2, ![1, D]⟩) (hb : (⟨2, ![1, D]⟩ : Shape).Broadcasts ⟨2, ![T, D]⟩)
    (hlt : FTy.bf16.bits < FTy.f32.bits)
    (x0 x1 : FVec Ideal ⟨2, ![T, K]⟩ .f32) (wl wr : FVec Ideal ⟨2, ![K, D]⟩ .f32) (b : FVec Ideal ⟨1, ![D]⟩ .f32) (p : Fin T) (q : Fin D) :
    maximumf (addf (addf (matmul (D2 w) none (truncf .bf16 x0 hlt) (truncf .bf16 wl hlt) (constant ⟨2, ![T, D]⟩ .f32 0x00000000#32))
          (matmul (D2 w) none (truncf .bf16 x1 hlt) (truncf .bf16 wr hlt) (constant ⟨2, ![T, D]⟩ .f32 0x00000000#32)))
        (broadcastTo ⟨2, ![T, D]⟩ (shapeCast ⟨2, ![1, D]⟩ b hc) hb))
      (broadcast ⟨2, ![T, D]⟩ (Scalar.ofBits (F := Ideal) .f32 0x00000000#32)) (ix2 p q)
      = max (affAt x0 x1 wl wr b p q) (Ideal.ofBits .f32 0x00000000#32) := by
  rw [maximumf_apply, tile_aff_at, broadcast_apply]
  rfl

/-- A row's dot product at row p: the sum over the lane axis of the entrywise products. -/
def rowDotAt {N K : Nat} (A B : FVec Ideal ⟨2, ![N, K]⟩ .f32) (p : Fin N) : Ideal .f32 :=
  ∑ k : Fin K, A (ix2 p k) * B (ix2 p k)

/-- A row's dot product reads only that row of each operand. -/
theorem rowDotAt_congr {N N' K : Nat} (A B : FVec Ideal ⟨2, ![N, K]⟩ .f32) (A' B' : FVec Ideal ⟨2, ![N', K]⟩ .f32) (p : Fin N) (p' : Fin N')
    (hA : ∀ k : Fin K, A (ix2 p k) = A' (ix2 p' k)) (hB : ∀ k : Fin K, B (ix2 p k) = B' (ix2 p' k)) :
    rowDotAt A B p = rowDotAt A' B' p' := by
  unfold rowDotAt
  simp only [hA, hB]

/-- A tile's spelling of the row dot products, kept as a column: the lane sum of the entrywise product into zero, the
    vector of sums re-laid as a column. At (p, u) it is row p's dot product. -/
theorem tile_rowDot_at {T K : Nat} (hr : (⟨2, ![T, K]⟩ : Shape).Reduces [1] ⟨1, ![T]⟩)
    (hc : (⟨1, ![T]⟩ : Shape).ShapeCasts ⟨2, ![T, 1]⟩) (hφ : FKind.Formats .f32)
    (hacc : (0x00000000#32 : BitVec 32) = FKind.add.neutral .f32 hφ)
    (x0 x1 : FVec Ideal ⟨2, ![T, K]⟩ .f32) (p : Fin T) (u : Fin 1) :
    shapeCast ⟨2, ![T, 1]⟩ (multiReduction .add [1] ⟨1, ![T]⟩ (mulf x0 x1) 0x00000000#32 hr hφ hacc) hc (ix2 p u)
      = rowDotAt x0 x1 p := by
  rw [Cert.Lib.Keepdims.shapeCast_a_a1_apply]
  refine (Ideal.multiReduction_add_single (mulf x0 x1) 0x00000000#32 hr hφ hacc (ix1 p)).trans ?_
  show (∑ k : Fin K, mulf x0 x1 (hr.lift (ix1 p) k)) = ∑ k : Fin K, x0 (ix2 p k) * x1 (ix2 p k)
  refine Finset.sum_congr rfl fun k _ => ?_
  rw [Cert.Lib.Keepdims.lift_axis1, mulf_apply]

end Cert.Sage

end
-- ==== Proof.KReg0.lean ====
/-
  The first launch: what its result array holds.

  The launch walks 20 tiles of 5000 rows. At tile t the body loads rows 5000·t … 5000·t + 4999 of the averaged
  neighbour features and of the node features, the two whole weight matrices and the whole bias, and stores one
  [5000, 128] tile: the rectified affine layer of those rows. Since the layer's value at a row reads only that row, the
  tile stored at t is rows 5000·t … of the layer applied to the whole arrays, and the 20 tiles cover the result array:
  the array ends as the layer of the arrays the launch was entered with.
-/
import proofs.«160332_j16192026706661_2_alg».proof.Proof.Gen.KernelIdeal.Frame
import proofs.«160332_j16192026706661_2_alg».proof.Proof.SageSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The stored tile at (p, q): the rectified affine layer of the loaded rows. -/
theorem pay0_at (x0 x1 : FVec Ideal S5000x64 .f32) (x2 x3 : FVec Ideal S64x128 .f32) (x4 : FVec Ideal S128 .f32) (p : Fin 5000) (q : Fin 128) :
    k0_pay1 x0 x1 x2 x3 x4 (ix2 p q)
      = max (Cert.Sage.affAt (N := 5000) (K := 64) (D := 128) x0 x1 x2 x3 x4 p q) (Ideal.ofBits .f32 0x00000000#32) := by
  unfold k0_pay1
  simp only [shapeCast_self]
  exact Cert.Sage.tile_relu_at Facts₀.dot_S5000x64_S64x128_S5000x128_1_0_0_1_n_n_wf Facts₀.shapeCasts_S128_S1x128
    Facts₀.broadcasts_S1x128_S5000x128 Facts₀.bitsLt_bf16_f32 x0 x1 x2 x3 x4 p q

/-- Where each window's block sits at tile t: the row windows at block row t, the weights and the bias at their one
    block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of the averaged features' tile at t is row 5000·t + p of the array. -/
theorem blk0_0_apply (c : Dev nD) (t : Fin cfg0.N) (p : Fin 5000) (i : Fin 64) (r : Fin 100000) (hr : r.val = 5000 * t.val + p.val) :
    (iblk0 V c 0 t : FVec Ideal S5000x64 .f32) (ix2 p i) = (V c main_v21 : FVec Ideal S100000x64 .f32) (ix2 r i) := by
  obtain ⟨e0, e1, -⟩ := idx_facts0 t
  unfold iblk0
  rw [View.read_apply]
  show V c main_v21 _ = V c main_v21 _
  refine congrArg _ ?_
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * i.val = i.val; rw [e1]; omega

/-- Row p of the node features' tile at t is row 5000·t + p of the array. -/
theorem blk0_1_apply (c : Dev nD) (t : Fin cfg0.N) (p : Fin 5000) (i : Fin 64) (r : Fin 100000) (hr : r.val = 5000 * t.val + p.val) :
    (iblk0 V c 1 t : FVec Ideal S5000x64 .f32) (ix2 p i) = (V c main_arg0 : FVec Ideal S100000x64 .f32) (ix2 r i) := by
  obtain ⟨-, -, e0, e1, -⟩ := idx_facts0 t
  unfold iblk0
  rw [View.read_apply]
  show V c main_arg0 _ = V c main_arg0 _
  refine congrArg _ ?_
  funext a
  apply Fin.ext
  match a with
  | ⟨0, _⟩ => show win0_1.index t (0 : Fin 2) * 5000 + 1 * p.val = r.val; rw [e0, hr]; omega
  | ⟨1, _⟩ => show win0_1.index t (1 : Fin 2) * 64 + 1 * i.val = i.val; rw [e1]; omega

/-- The first weight matrix's block is the matrix. -/
theorem blk0_2_apply (c : Dev nD) (t : Fin cfg0.N) (i : Fin 64) (q : Fin 128) :
    (iblk0 V c 2 t : FVec Ideal S64x128 .f32) (ix2 i q) = (V c main_arg1 : FVec Ideal S64x128 .f32) (ix2 i q) := by
  obtain ⟨-, -, -, -, e0, e1, -⟩ := idx_facts0 t
  unfold iblk0
  rw [View.read_apply]
  show V c main_arg1 _ = V c main_arg1 _
  refine congrArg _ ?_
  funext a
  apply Fin.ext
  match a with
  | ⟨0, _⟩ => show win0_2.index t (0 : Fin 2) * 64 + 1 * i.val = i.val; rw [e0]; omega
  | ⟨1, _⟩ => show win0_2.index t (1 : Fin 2) * 128 + 1 * q.val = q.val; rw [e1]; omega

/-- The second weight matrix's block is the matrix. -/
theorem blk0_3_apply (c : Dev nD) (t : Fin cfg0.N) (i : Fin 64) (q : Fin 128) :
    (iblk0 V c 3 t : FVec Ideal S64x128 .f32) (ix2 i q) = (V c main_arg2 : FVec Ideal S64x128 .f32) (ix2 i q) := by
  obtain ⟨-, -, -, -, -, -, e0, e1, -⟩ := idx_facts0 t
  unfold iblk0
  rw [View.read_apply]
  show V c main_arg2 _ = V c main_arg2 _
  refine congrArg _ ?_
  funext a
  apply Fin.ext
  match a with
  | ⟨0, _⟩ => show win0_3.index t (0 : Fin 2) * 64 + 1 * i.val = i.val; rw [e0]; omega
  | ⟨1, _⟩ => show win0_3.index t (1 : Fin 2) * 128 + 1 * q.val = q.val; rw [e1]; omega

/-- The bias's block is the bias. -/
theorem blk0_4_apply (c : Dev nD) (t : Fin cfg0.N) (q : Fin 128) :
    (iblk0 V c 4 t : FVec Ideal S128 .f32) (ix1 q) = (V c main_arg3 : FVec Ideal S128 .f32) (ix1 q) := by
  obtain ⟨-, -, -, -, -, -, -, -, e0, -⟩ := idx_facts0 t
  unfold iblk0
  rw [View.read_apply]
  show V c main_arg3 _ = V c main_arg3 _
  refine congrArg _ ?_
  funext a
  apply Fin.ext
  match a with
  | ⟨0, _⟩ => show win0_4.index t (0 : Fin 1) * 128 + 1 * q.val = q.val; rw [e0]; omega

/-- The layer of the arrays the launch is entered with. -/
abbrev layer0 (c : Dev nD) : FVec Ideal S100000x128 .f32 :=
  Cert.Sage.linRelu (N := 100000) (K := 64) (D := 128) (V c main_v21) (V c main_arg0) (V c main_arg1) (V c main_arg2) (V c main_arg3)

/-- What tile t writes back is its block of the layer of the whole arrays. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x128) hz2, View.ld_unit_zero (S := S128) hz1]
  obtain ⟨-, -, -, -, -, -, -, -, -, e9, e10⟩ := idx_facts0 t
  funext j
  obtain ⟨p, q, rfl⟩ : ∃ (p : Fin 5000) (q : Fin 128), j = ix2 p q := ⟨j 0, j 1, eq_ix2 j⟩
  have hN : cfg0.N = 20 := N_0
  have hrow : 5000 * t.val + p.val < 100000 := by have := t.isLt; have := p.isLt; omega
  show k0_pay1 (iblk0 V c 0 t) (iblk0 V c 1 t) (iblk0 V c 2 t) (iblk0 V c 3 t) (iblk0 V c 4 t) (ix2 p q)
    = layer0 V c (((cfg0.win 5).blk t).view.emb (ix2 p q))
  have hemb : ((cfg0.win 5).blk t).view.emb (ix2 p q) = ix2 (⟨5000 * t.val + p.val, hrow⟩ : Fin 100000) q := by
    funext a
    apply Fin.ext
    match a with
    | ⟨0, _⟩ => show win0_5.index t (0 : Fin 2) * 5000 + 1 * p.val = 5000 * t.val + p.val; rw [e9]; omega
    | ⟨1, _⟩ => show win0_5.index t (1 : Fin 2) * 128 + 1 * q.val = q.val; rw [e10]; omega
  rw [hemb]
  refine (pay0_at (iblk0 V c 0 t) (iblk0 V c 1 t) (iblk0 V c 2 t) (iblk0 V c 3 t) (iblk0 V c 4 t) p q).trans ?_
  refine congrArg (fun s => max s (Ideal.ofBits .f32 0x00000000#32)) ?_
  exact Cert.Sage.affAt_congr (N := 5000) (N' := 100000) (K := 64) (D := 128)
    (iblk0 V c 0 t) (iblk0 V c 1 t) (V c main_v21) (V c main_arg0) (iblk0 V c 2 t) (iblk0 V c 3 t) (V c main_arg1) (V c main_arg2)
    (iblk0 V c 4 t) (V c main_arg3) p ⟨5000 * t.val + p.val, hrow⟩ q
    (fun i => blk0_0_apply V c t p i _ rfl) (fun i => blk0_1_apply V c t p i _ rfl)
    (fun i => blk0_2_apply V c t i q) (fun i => blk0_3_apply V c t i q) (blk0_4_apply V c t q)

/-- An index of the result array is in tile t's block iff each coordinate is in the block's range. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Row r of the result array is written by tile r / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, e9, e10⟩ := idx_facts0 ⟨(i 0).val / 5000, ht⟩
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e9]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e10]
    omega

/-- The result array after the launch: the rectified layer of the arrays it was entered with. -/
theorem array0 (c : Dev nD) : (dat0 V c).arrAt 5 cfg0.N = layer0 V c :=
  (dat0 V c).arrAt_eq_of_cover 5 (layer0 V c) (fun t _ => flushed0_eq V c t) cover0

end Cert.KernelIdeal.Hand

end
-- ==== Proof.KReg1.lean ====
/-
  The second launch: what its result array holds.

  The launch walks 20 tiles of 5000 rows. At tile t the body loads rows 5000·t … 5000·t + 4999 of the averaged
  hidden features and of the hidden features, the two whole weight matrices and the whole bias, and stores one
  [5000, 64] tile: the affine layer of those rows, with no rectifier. The layer's value at a row reads only that row, so
  the tile stored at t is rows 5000·t … of the layer applied to the whole arrays, and the 20 tiles cover the result
  array: the array ends as the layer of the arrays the launch was entered with.
-/
import proofs.«160332_j16192026706661_2_alg».proof.Proof.Gen.KernelIdeal.Frame
import proofs.«160332_j16192026706661_2_alg».proof.Proof.KReg0
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The stored tile at (p, q): the affine layer of the loaded rows. -/
theorem pay1_at (x0 x1 : FVec Ideal S5000x128 .f32) (x2 x3 : FVec Ideal S128x64 .f32) (x4 : FVec Ideal S64 .f32) (p : Fin 5000) (q : Fin 64) :
    k1_pay1 x0 x1 x2 x3 x4 (ix2 p q)
      = Cert.Sage.affAt (N := 5000) (K := 128) (D := 64) x0 x1 x2 x3 x4 p q := by
  unfold k1_pay1
  simp only [shapeCast_self]
  exact Cert.Sage.tile_aff_at Facts₀.dot_S5000x128_S128x64_S5000x64_1_0_0_1_n_n_wf Facts₀.shapeCasts_S64_S1x64
    Facts₀.broadcasts_S1x64_S5000x64 Facts₀.bitsLt_bf16_f32 x0 x1 x2 x3 x4 p q

/-- Where each window's block sits at tile t: the row windows at block row t, the weights and the bias at their one
    block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the averaged hidden features' tile at t is row 5000·t + p of the array. -/
theorem blk1_0_apply (c : Dev nD) (t : Fin cfg1.N) (p : Fin 5000) (i : Fin 128) (r : Fin 100000) (hr : r.val = 5000 * t.val + p.val) :
    (iblk1 V c 0 t : FVec Ideal S5000x128 .f32) (ix2 p i) = (V c main_v44 : FVec Ideal S100000x128 .f32) (ix2 r i) := by
  obtain ⟨e0, e1, -⟩ := idx_facts1 t
  unfold iblk1
  rw [View.read_apply]
  show V c main_v44 _ = V c main_v44 _
  refine congrArg _ ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * i.val = i.val; rw [e1]; omega

/-- Row p of the hidden features' tile at t is row 5000·t + p of the array. -/
theorem blk1_1_apply (c : Dev nD) (t : Fin cfg1.N) (p : Fin 5000) (i : Fin 128) (r : Fin 100000) (hr : r.val = 5000 * t.val + p.val) :
    (iblk1 V c 1 t : FVec Ideal S5000x128 .f32) (ix2 p i) = (V c main_v22 : FVec Ideal S100000x128 .f32) (ix2 r i) := by
  obtain ⟨-, -, e0, e1, -⟩ := idx_facts1 t
  unfold iblk1
  rw [View.read_apply]
  show V c main_v22 _ = V c main_v22 _
  refine congrArg _ ?_
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * i.val = i.val; rw [e1]; omega

/-- The first weight matrix's block is the matrix. -/
theorem blk1_2_apply (c : Dev nD) (t : Fin cfg1.N) (i : Fin 128) (q : Fin 64) :
    (iblk1 V c 2 t : FVec Ideal S128x64 .f32) (ix2 i q) = (V c main_arg4 : FVec Ideal S128x64 .f32) (ix2 i q) := by
  obtain ⟨-, -, -, -, e0, e1, -⟩ := idx_facts1 t
  unfold iblk1
  rw [View.read_apply]
  show V c main_arg4 _ = V c main_arg4 _
  refine congrArg _ ?_
  funext a
  apply Fin.ext
  match a with
  | ⟨0, _⟩ => show win1_2.index t (0 : Fin 2) * 128 + 1 * i.val = i.val; rw [e0]; omega
  | ⟨1, _⟩ => show win1_2.index t (1 : Fin 2) * 64 + 1 * q.val = q.val; rw [e1]; omega

/-- The second weight matrix's block is the matrix. -/
theorem blk1_3_apply (c : Dev nD) (t : Fin cfg1.N) (i : Fin 128) (q : Fin 64) :
    (iblk1 V c 3 t : FVec Ideal S128x64 .f32) (ix2 i q) = (V c main_arg5 : FVec Ideal S128x64 .f32) (ix2 i q) := by
  obtain ⟨-, -, -, -, -, -, e0, e1, -⟩ := idx_facts1 t
  unfold iblk1
  rw [View.read_apply]
  show V c main_arg5 _ = V c main_arg5 _
  refine congrArg _ ?_
  funext a
  apply Fin.ext
  match a with
  | ⟨0, _⟩ => show win1_3.index t (0 : Fin 2) * 128 + 1 * i.val = i.val; rw [e0]; omega
  | ⟨1, _⟩ => show win1_3.index t (1 : Fin 2) * 64 + 1 * q.val = q.val; rw [e1]; omega

/-- The bias's block is the bias. -/
theorem blk1_4_apply (c : Dev nD) (t : Fin cfg1.N) (q : Fin 64) :
    (iblk1 V c 4 t : FVec Ideal S64 .f32) (ix1 q) = (V c main_arg6 : FVec Ideal S64 .f32) (ix1 q) := by
  obtain ⟨-, -, -, -, -, -, -, -, e0, -⟩ := idx_facts1 t
  unfold iblk1
  rw [View.read_apply]
  show V c main_arg6 _ = V c main_arg6 _
  refine congrArg _ ?_
  funext a
  apply Fin.ext
  match a with
  | ⟨0, _⟩ => show win1_4.index t (0 : Fin 1) * 64 + 1 * q.val = q.val; rw [e0]; omega

/-- The layer of the arrays the launch is entered with. -/
abbrev layer1 (c : Dev nD) : FVec Ideal S100000x64 .f32 :=
  Cert.Sage.lin (N := 100000) (K := 128) (D := 64) (V c main_v44) (V c main_v22) (V c main_arg4) (V c main_arg5) (V c main_arg6)

/-- What tile t writes back is its block of the layer of the whole arrays. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x64) hz2, View.ld_unit_zero (S := S64) hz1]
  obtain ⟨-, -, -, -, -, -, -, -, -, e9, e10⟩ := idx_facts1 t
  funext j
  obtain ⟨p, q, rfl⟩ : ∃ (p : Fin 5000) (q : Fin 64), j = ix2 p q := ⟨j 0, j 1, eq_ix2 j⟩
  have hN : cfg1.N = 20 := N_1
  have hrow : 5000 * t.val + p.val < 100000 := by have := t.isLt; have := p.isLt; omega
  show k1_pay1 (iblk1 V c 0 t) (iblk1 V c 1 t) (iblk1 V c 2 t) (iblk1 V c 3 t) (iblk1 V c 4 t) (ix2 p q)
    = layer1 V c (((cfg1.win 5).blk t).view.emb (ix2 p q))
  have hemb : ((cfg1.win 5).blk t).view.emb (ix2 p q) = ix2 (⟨5000 * t.val + p.val, hrow⟩ : Fin 100000) q := by
    funext a
    apply Fin.ext
    match a with
    | ⟨0, _⟩ => show win1_5.index t (0 : Fin 2) * 5000 + 1 * p.val = 5000 * t.val + p.val; rw [e9]; omega
    | ⟨1, _⟩ => show win1_5.index t (1 : Fin 2) * 64 + 1 * q.val = q.val; rw [e10]; omega
  rw [hemb]
  refine (pay1_at (iblk1 V c 0 t) (iblk1 V c 1 t) (iblk1 V c 2 t) (iblk1 V c 3 t) (iblk1 V c 4 t) p q).trans ?_
  exact Cert.Sage.affAt_congr (N := 5000) (N' := 100000) (K := 128) (D := 64)
    (iblk1 V c 0 t) (iblk1 V c 1 t) (V c main_v44) (V c main_v22) (iblk1 V c 2 t) (iblk1 V c 3 t) (V c main_arg4) (V c main_arg5)
    (iblk1 V c 4 t) (V c main_arg6) p ⟨5000 * t.val + p.val, hrow⟩ q
    (fun i => blk1_0_apply V c t p i _ rfl) (fun i => blk1_1_apply V c t p i _ rfl)
    (fun i => blk1_2_apply V c t i q) (fun i => blk1_3_apply V c t i q) (blk1_4_apply V c t q)

/-- An index of the result array is in tile t's block iff each coordinate is in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Row r of the result array is written by tile r / 5000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, e9, e10⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e9]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e10]
    omega

/-- The result array after the launch: the layer of the arrays it was entered with. -/
theorem array1 (c : Dev nD) : (dat1 V c).arrAt 5 cfg1.N = layer1 V c :=
  (dat1 V c).arrAt_eq_of_cover 5 (layer1 V c) (fun t _ => flushed1_eq V c t) cover1

end Cert.KernelIdeal.Hand

end
-- ==== Proof.KReg2.lean ====
/-
  The third launch: what its result array holds.

  The launch walks 25 tiles of 8000 label edges. At tile t the body loads rows 8000·t … 8000·t + 7999 of the two
  gathered endpoint-feature arrays, multiplies them entry by entry, sums each row over its 64 lanes and stores the
  sums as an [8000, 1] column. A row's sum reads only that row of each operand, so the column stored at t is rows
  8000·t … of the column of all row dot products, and the 25 tiles cover the [200000, 1] result array.
-/
import proofs.«160332_j16192026706661_2_alg».proof.Proof.Gen.KernelIdeal.Frame
import proofs.«160332_j16192026706661_2_alg».proof.Proof.KReg0
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The stored column at (p, u): the dot product of row p of the two loaded tiles. -/
theorem pay2_at (x0 x1 : FVec Ideal S8000x64 .f32) (p : Fin 8000) (u : Fin 1) :
    k2_pay1 x0 x1 (ix2 p u) = Cert.Sage.rowDotAt (N := 8000) (K := 64) x0 x1 p := by
  unfold k2_pay1
  simp only [shapeCast_self]
  exact Cert.Sage.tile_rowDot_at Facts₀.reduces_S8000x64_S8000 Facts₀.shapeCasts_S8000_S8000x1 (.inl rfl) rfl x0 x1 p u

/-- Where each window's block sits at tile t: all three at block row t. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of the first endpoint's tile at t is row 8000·t + p of the array. -/
theorem blk2_0_apply (c : Dev nD) (t : Fin cfg2.N) (p : Fin 8000) (k : Fin 64) (r : Fin 200000) (hr : r.val = 8000 * t.val + p.val) :
    (iblk2 V c 0 t : FVec Ideal S8000x64 .f32) (ix2 p k) = (V c main_v54 : FVec Ideal S200000x64 .f32) (ix2 r k) := by
  obtain ⟨e0, e1, -⟩ := idx_facts2 t
  unfold iblk2
  rw [View.read_apply]
  show V c main_v54 _ = V c main_v54 _
  refine congrArg _ ?_
  funext a
  apply Fin.ext
  match a with
  | ⟨0, _⟩ => show win2_0.index t (0 : Fin 2) * 8000 + 1 * p.val = r.val; rw [e0, hr]; omega
  | ⟨1, _⟩ => show win2_0.index t (1 : Fin 2) * 64 + 1 * k.val = k.val; rw [e1]; omega

/-- Row p of the second endpoint's tile at t is row 8000·t + p of the array. -/
theorem blk2_1_apply (c : Dev nD) (t : Fin cfg2.N) (p : Fin 8000) (k : Fin 64) (r : Fin 200000) (hr : r.val = 8000 * t.val + p.val) :
    (iblk2 V c 1 t : FVec Ideal S8000x64 .f32) (ix2 p k) = (V c main_v63 : FVec Ideal S200000x64 .f32) (ix2 r k) := by
  obtain ⟨-, -, e0, e1, -⟩ := idx_facts2 t
  unfold iblk2
  rw [View.read_apply]
  show V c main_v63 _ = V c main_v63 _
  refine congrArg _ ?_
  funext a
  apply Fin.ext
  match a with
  | ⟨0, _⟩ => show win2_1.index t (0 : Fin 2) * 8000 + 1 * p.val = r.val; rw [e0, hr]; omega
  | ⟨1, _⟩ => show win2_1.index t (1 : Fin 2) * 64 + 1 * k.val = k.val; rw [e1]; omega

/-- The column of all row dot products of the arrays the launch is entered with. -/
abbrev scores2 (c : Dev nD) : FVec Ideal S200000x1 .f32 :=
  fun j => Cert.Sage.rowDotAt (N := 200000) (K := 64) (V c main_v54) (V c main_v63) (j 0)

/-- What tile t writes back is its block of that column. -/
theorem flushed2_eq (c : Dev nD) (t : Fin cfg2.N) :
    (dat2 V c).flushed 2 t = ((cfg2.win 2).blk t).view.read (Elt Ideal) (scores2 V c) := by
  show (cfg2.win 2).cut (grid2.coords t) ((dat2 V c).after 2 t) = _
  rw [after2_2]
  unfold out2_2
  rw [View.canon_unit_zero hz2]
  simp only [View.ld_unit_zero (S := S8000x64) hz2]
  obtain ⟨-, -, -, -, e4, e5⟩ := idx_facts2 t
  funext j
  obtain ⟨p, u, rfl⟩ : ∃ (p : Fin 8000) (u : Fin 1), j = ix2 p u := ⟨j 0, j 1, eq_ix2 j⟩
  have hN : cfg2.N = 25 := N_2
  have hrow : 8000 * t.val + p.val < 200000 := by have := t.isLt; have := p.isLt; omega
  show k2_pay1 (iblk2 V c 0 t) (iblk2 V c 1 t) (ix2 p u) = scores2 V c (((cfg2.win 2).blk t).view.emb (ix2 p u))
  have hemb : ((cfg2.win 2).blk t).view.emb (ix2 p u) = ix2 (⟨8000 * t.val + p.val, hrow⟩ : Fin 200000) u := by
    funext a
    apply Fin.ext
    match a with
    | ⟨0, _⟩ => show win2_2.index t (0 : Fin 2) * 8000 + 1 * p.val = 8000 * t.val + p.val; rw [e4]; omega
    | ⟨1, _⟩ => show win2_2.index t (1 : Fin 2) * 1 + 1 * u.val = u.val; rw [e5]; omega
  rw [hemb]
  refine (pay2_at (iblk2 V c 0 t) (iblk2 V c 1 t) p u).trans ?_
  exact Cert.Sage.rowDotAt_congr (N := 8000) (N' := 200000) (K := 64) (iblk2 V c 0 t) (iblk2 V c 1 t) (V c main_v54) (V c main_v63)
    p ⟨8000 * t.val + p.val, hrow⟩ (fun k => blk2_0_apply V c t p k _ rfl) (fun k => blk2_1_apply V c t p k _ rfl)

/-- An index of the result array is in tile t's block iff each coordinate is in the block's range. -/
theorem mem_blk2 (t : Fin cfg2.N) (i : S200000x1.Idx) :
    i ∈ ((cfg2.win 2).blk t).view.set ↔ ∀ a : Fin 2, win2_2.index t a * S8000x1.size a ≤ (i a).val ∧ (i a).val < win2_2.index t a * S8000x1.size a + S8000x1.size a := by
  show i ∈ ((View.whole main_v64).slice (win2_2.rect t)).set ↔ _
  rw [View.set_slice_whole, Rect.mem_set_unit]
  exact Iff.rfl

/-- Row r of the result array is written by tile r / 8000. -/
theorem cover2 (i : S200000x1.Idx) : ∃ t : Fin cfg2.N, (cfg2.win 2).flush t = true ∧ i ∈ ((cfg2.win 2).blk t).view.set := by
  have hi0 : (i 0).val < 200000 := (i 0).isLt
  have hi1 : (i 1).val < 1 := (i 1).isLt
  have hN : cfg2.N = 25 := N_2
  have ht : (i 0).val / 8000 < cfg2.N := by rw [hN]; omega
  obtain ⟨-, -, -, -, e4, e5⟩ := idx_facts2 ⟨(i 0).val / 8000, ht⟩
  refine ⟨⟨(i 0).val / 8000, ht⟩, flush2_2 _, ?_⟩
  rw [mem_blk2]
  intro a
  match a with
  | ⟨0, _⟩ =>
    show win2_2.index ⟨(i 0).val / 8000, ht⟩ (0 : Fin 2) * 8000 ≤ (i 0).val ∧ (i 0).val < win2_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win2_2.index ⟨(i 0).val / 8000, ht⟩ (1 : Fin 2) * 1 ≤ (i 1).val ∧ (i 1).val < win2_2.index ⟨(i 0).val / 8000, ht⟩ (1 : Fin 2) * 1 + 1
    rw [e5]
    omega

/-- The result array after the launch: the column of row dot products of the arrays it was entered with. -/
theorem array2 (c : Dev nD) : (dat2 V c).arrAt 2 cfg2.N = scores2 V c :=
  (dat2 V c).arrAt_eq_of_cover 2 (scores2 V c) (fun t _ => flushed2_eq V c t) cover2

end Cert.KernelIdeal.Hand

end
-- ==== Proof.KHost.lean ====
/-
  The host operations between the launches, read against the reference's own stages.

  Before each launch the program prepares its operands with the same host operations the reference applies: the two
  rows of the edge list are sliced out and wrapped into range, source rows are gathered, scatter-added by destination,
  and divided by the clamped in-degree; before the last launch the two endpoint rows of every label edge are gathered.
  Each stretch is read here as one function of whatever the buffers hold when it starts: the averaged features
  before the first launch are the reference's averaged features of the same arguments, and each later stretch is the
  reference's corresponding stage as soon as the array it starts from is the reference's stage before it. The
  gathers, scatter-adds and the division are never opened: both programs spell them identically.
-/
import proofs.«160332_j16192026706661_2_alg».proof.Proof.Gen.KernelIdeal.Launch
import proofs.«160332_j16192026706661_2_alg».proof.Proof.Gen.ReferenceIdeal.Read
import Idealize.ShloMosaic.Lib.StableHlo.Run

set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-! ## Before the first launch -/

/-- The averaged neighbour features the first launch reads are the reference's, of the same node features and edge list. -/
theorem host0_mean :
    StableHlo.after (hostOps0 (F := Ideal)) W (Proc.devRef .tc main_v21)
      = val_main_v21 (F := Ideal) (W (Proc.devRef .tc main_arg0)) (W (Proc.devRef .tc main_arg7)) := by
  dsimp only [hostOps0]
  after_results_simp
  simp only [val_main_v21, val_main_v20, val_main_v19, val_main_v18, val_main_cst_3, val_main_v17, val_main_v16, val_main_v15, val_main_cst_2, val_main_v14, val_main_cst_1, val_main_v13, val_main_v12, val_main_v11, val_main_cst, val_main_v10, val_main_v9, val_main_v8, val_main_v7, val_main_v6, val_main_c_0, val_main_v5, val_main_v4, val_main_c, val_main_v3, val_main_v2, val_main_v1, val_main_v0]
  try rfl

/-- The first stretch writes no argument array. -/
theorem host0_keeps :
    StableHlo.after (hostOps0 (F := Ideal)) W (Proc.devRef .tc main_arg0) = W (Proc.devRef .tc main_arg0)
    ∧ StableHlo.after (hostOps0 (F := Ideal)) W (Proc.devRef .tc main_arg1) = W (Proc.devRef .tc main_arg1)
    ∧ StableHlo.after (hostOps0 (F := Ideal)) W (Proc.devRef .tc main_arg2) = W (Proc.devRef .tc main_arg2)
    ∧ StableHlo.after (hostOps0 (F := Ideal)) W (Proc.devRef .tc main_arg3) = W (Proc.devRef .tc main_arg3)
    ∧ StableHlo.after (hostOps0 (F := Ideal)) W (Proc.devRef .tc main_arg4) = W (Proc.devRef .tc main_arg4)
    ∧ StableHlo.after (hostOps0 (F := Ideal)) W (Proc.devRef .tc main_arg5) = W (Proc.devRef .tc main_arg5)
    ∧ StableHlo.after (hostOps0 (F := Ideal)) W (Proc.devRef .tc main_arg6) = W (Proc.devRef .tc main_arg6)
    ∧ StableHlo.after (hostOps0 (F := Ideal)) W (Proc.devRef .tc main_arg7) = W (Proc.devRef .tc main_arg7)
    ∧ StableHlo.after (hostOps0 (F := Ideal)) W (Proc.devRef .tc main_arg8) = W (Proc.devRef .tc main_arg8) := by
  dsimp only [hostOps0]
  refine ⟨?_, ?_, ?_, ?_, ?_, ?_, ?_, ?_, ?_⟩ <;> after_results_simp

/-! ## Between the first and the second launch -/

/-- The averaged hidden features the second launch reads are the reference's, once the hidden features are. -/
theorem host1_mean (x0 : (⟨Cert.ReferenceIdeal.S100000x64, .f32⟩ : BufTy).Contents (Elt Ideal))
    (x1 x2 : (⟨Cert.ReferenceIdeal.S64x128, .f32⟩ : BufTy).Contents (Elt Ideal)) (x3 : (⟨Cert.ReferenceIdeal.S128, .f32⟩ : BufTy).Contents (Elt Ideal))
    (x7 : (⟨Cert.ReferenceIdeal.S2x1600000, .i32⟩ : BufTy).Contents (Elt Ideal))
    (hh : W (Proc.devRef .tc main_v22) = val_main_v28 (F := Ideal) x0 x1 x2 x3 x7) (h7 : W (Proc.devRef .tc main_arg7) = x7) :
    StableHlo.after (hostOps1 (F := Ideal)) W (Proc.devRef .tc main_v44) = val_main_v50 (F := Ideal) x0 x1 x2 x3 x7 := by
  dsimp only [hostOps1]
  after_results_simp
  rw [hh, h7]
  simp only [val_main_v50, val_main_v49, val_main_v48, val_main_v47, val_main_cst_9, val_main_v46, val_main_v45, val_main_v44, val_main_cst_8, val_main_v43, val_main_cst_7, val_main_v42, val_main_v41, val_main_v40, val_main_cst_6, val_main_v39, val_main_v38, val_main_v37, val_main_v36, val_main_v35, val_main_c_5, val_main_v34, val_main_v33, val_main_c_4, val_main_v32, val_main_v31, val_main_v30, val_main_v29]
  try rfl

/-- The second stretch writes none of the other arrays the second launch reads, nor the label edge list. -/
theorem host1_keeps :
    StableHlo.after (hostOps1 (F := Ideal)) W (Proc.devRef .tc main_v22) = W (Proc.devRef .tc main_v22)
    ∧ StableHlo.after (hostOps1 (F := Ideal)) W (Proc.devRef .tc main_arg4) = W (Proc.devRef .tc main_arg4)
    ∧ StableHlo.after (hostOps1 (F := Ideal)) W (Proc.devRef .tc main_arg5) = W (Proc.devRef .tc main_arg5)
    ∧ StableHlo.after (hostOps1 (F := Ideal)) W (Proc.devRef .tc main_arg6) = W (Proc.devRef .tc main_arg6)
    ∧ StableHlo.after (hostOps1 (F := Ideal)) W (Proc.devRef .tc main_arg8) = W (Proc.devRef .tc main_arg8) := by
  dsimp only [hostOps1]
  refine ⟨?_, ?_, ?_, ?_, ?_⟩ <;> after_results_simp

/-! ## Between the second and the third launch -/

/-- The two gathered endpoint-feature arrays are the reference's, once the output features are. -/
theorem host2_gathers (x0 : (⟨Cert.ReferenceIdeal.S100000x64, .f32⟩ : BufTy).Contents (Elt Ideal))
    (x1 x2 : (⟨Cert.ReferenceIdeal.S64x128, .f32⟩ : BufTy).Contents (Elt Ideal)) (x3 : (⟨Cert.ReferenceIdeal.S128, .f32⟩ : BufTy).Contents (Elt Ideal))
    (x4 x5 : (⟨Cert.ReferenceIdeal.S128x64, .f32⟩ : BufTy).Contents (Elt Ideal)) (x6 : (⟨Cert.ReferenceIdeal.S64, .f32⟩ : BufTy).Contents (Elt Ideal))
    (x7 : (⟨Cert.ReferenceIdeal.S2x1600000, .i32⟩ : BufTy).Contents (Elt Ideal)) (x8 : (⟨Cert.ReferenceIdeal.S2x200000, .i32⟩ : BufTy).Contents (Elt Ideal))
    (hz : W (Proc.devRef .tc main_v45) = val_main_v56 (F := Ideal) x0 x1 x2 x3 x4 x5 x6 x7) (h8 : W (Proc.devRef .tc main_arg8) = x8) :
    StableHlo.after (hostOps2 (F := Ideal)) W (Proc.devRef .tc main_v54) = val_main_v65 (F := Ideal) x0 x1 x2 x3 x4 x5 x6 x7 x8
    ∧ StableHlo.after (hostOps2 (F := Ideal)) W (Proc.devRef .tc main_v63) = val_main_v74 (F := Ideal) x0 x1 x2 x3 x4 x5 x6 x7 x8 := by
  dsimp only [hostOps2]
  constructor
  · after_results_simp
    rw [hz, h8]
    simp only [val_main_v65, val_main_v64, val_main_v63, val_main_v62, val_main_v61, val_main_c_11, val_main_v60, val_main_v59, val_main_c_10, val_main_v58, val_main_v57]
    try rfl
  · after_results_simp
    rw [hz, h8]
    simp only [val_main_v74, val_main_v73, val_main_v72, val_main_v71, val_main_v70, val_main_c_13, val_main_v69, val_main_v68, val_main_c_12, val_main_v67, val_main_v66]
    try rfl

/-! ## After the third launch -/

/-- The result is the column of scores re-laid as a vector. -/
theorem host3_result :
    StableHlo.after (hostOps3 (F := Ideal)) W (Proc.devRef .tc main_v65)
      = shapeCast S200000 (W (Proc.devRef .tc main_v64)) Facts₀.shapeCasts_S200000x1_S200000 := by
  dsimp only [hostOps3]
  after_results_simp
  try rfl

end Cert.KernelIdeal.Hand

end
-- ==== Proof.RefStages.lean ====
/-
  The reference's three dense stages, each as the layer it is.

  Read at an entry, the reference's first convolution output (two `dot_general`s added, the bias broadcast over the
  rows, a maximum with a broadcast zero) is the rectified affine layer of the averaged neighbour features and the node
  features; its second convolution output is the affine layer of the averaged hidden features and the hidden features;
  and its result at a label edge is the initial value zero plus the dot product of the two gathered rows. The gathers
  and the scatter-adds between them are carried as they stand: nothing here looks inside them.
-/
import proofs.«160332_j16192026706661_2_alg».proof.Proof.Gen.ReferenceIdeal.Read
import proofs.«160332_j16192026706661_2_alg».proof.Proof.SageSpec

noncomputable section

open scoped BigOperators

namespace Cert.ReferenceIdeal.Hand

open Cert.ReferenceIdeal Cert.ReferenceIdeal.Read Idealize.ShloMosaic Idealize.ShloMosaic.ValueIdx

variable (x0 : (⟨S100000x64, .f32⟩ : BufTy).Contents (Elt Ideal)) (x1 x2 : (⟨S64x128, .f32⟩ : BufTy).Contents (Elt Ideal))
  (x3 : (⟨S128, .f32⟩ : BufTy).Contents (Elt Ideal)) (x4 x5 : (⟨S128x64, .f32⟩ : BufTy).Contents (Elt Ideal))
  (x6 : (⟨S64, .f32⟩ : BufTy).Contents (Elt Ideal)) (x7 : (⟨S2x1600000, .i32⟩ : BufTy).Contents (Elt Ideal))
  (x8 : (⟨S2x200000, .i32⟩ : BufTy).Contents (Elt Ideal))

/-- The hidden features: the rectified layer of the averaged neighbour features and the node features. -/
theorem hidden_eq :
    val_main_v28 (F := Ideal) x0 x1 x2 x3 x7
      = Cert.Sage.linRelu (N := 100000) (K := 64) (D := 128) (val_main_v21 (F := Ideal) x0 x7) x0 x1 x2 x3 := by
  funext j
  obtain ⟨r, q, rfl⟩ : ∃ (r : Fin 100000) (q : Fin 128), j = ix2 r q := ⟨j 0, j 1, eq_ix2 j⟩
  rw [Cert.Sage.linRelu_ix2]
  unfold Cert.Sage.affAt
  rw [val_main_v28_apply, val_main_v27_apply, val_main_v24_apply, val_main_v22_apply, val_main_v23_apply,
    val_main_v26_apply, val_main_v25_apply, val_main_call0_v0_apply, val_main_call0_cst_apply]
  have eb : idx_main_v25 (idx_main_v26 (ix2 r q)) = ix1 q := funext fun a => Fin.ext (by match a with | ⟨0, _⟩ => rfl)
  have s1 : (∑ k : Fin 64, val_main_v21 (F := Ideal) x0 x7 (lidx_main_v22 (ix2 r q) k) * x1 (ridx_main_v22 (ix2 r q) k))
      = ∑ k : Fin 64, val_main_v21 (F := Ideal) x0 x7 (ix2 r k) * x1 (ix2 k q) :=
    Finset.sum_congr rfl fun k _ => by
      have el : lidx_main_v22 (ix2 r q) k = ix2 r k := funext fun a => Fin.ext (by match a with | ⟨0, _⟩ => rfl | ⟨1, _⟩ => rfl)
      have er : ridx_main_v22 (ix2 r q) k = ix2 k q := funext fun a => Fin.ext (by match a with | ⟨0, _⟩ => rfl | ⟨1, _⟩ => rfl)
      rw [el, er]
  have s2 : (∑ k : Fin 64, x0 (lidx_main_v23 (ix2 r q) k) * x2 (ridx_main_v23 (ix2 r q) k))
      = ∑ k : Fin 64, x0 (ix2 r k) * x2 (ix2 k q) :=
    Finset.sum_congr rfl fun k _ => by
      have el : lidx_main_v23 (ix2 r q) k = ix2 r k := funext fun a => Fin.ext (by match a with | ⟨0, _⟩ => rfl | ⟨1, _⟩ => rfl)
      have er : ridx_main_v23 (ix2 r q) k = ix2 k q := funext fun a => Fin.ext (by match a with | ⟨0, _⟩ => rfl | ⟨1, _⟩ => rfl)
      rw [el, er]
  rw [s1, s2, eb]
  rfl

/-- The output features: the layer of the averaged hidden features and the hidden features. -/
theorem output_eq :
    val_main_v56 (F := Ideal) x0 x1 x2 x3 x4 x5 x6 x7
      = Cert.Sage.lin (N := 100000) (K := 128) (D := 64) (val_main_v50 (F := Ideal) x0 x1 x2 x3 x7) (val_main_v28 (F := Ideal) x0 x1 x2 x3 x7) x4 x5 x6 := by
  funext j
  obtain ⟨r, q, rfl⟩ : ∃ (r : Fin 100000) (q : Fin 64), j = ix2 r q := ⟨j 0, j 1, eq_ix2 j⟩
  rw [Cert.Sage.lin_ix2]
  unfold Cert.Sage.affAt
  rw [val_main_v56_apply, val_main_v53_apply, val_main_v51_apply, val_main_v52_apply, val_main_v55_apply, val_main_v54_apply]
  have eb : idx_main_v54 (idx_main_v55 (ix2 r q)) = ix1 q := funext fun a => Fin.ext (by match a with | ⟨0, _⟩ => rfl)
  have s1 : (∑ k : Fin 128, val_main_v50 (F := Ideal) x0 x1 x2 x3 x7 (lidx_main_v51 (ix2 r q) k) * x4 (ridx_main_v51 (ix2 r q) k))
      = ∑ k : Fin 128, val_main_v50 (F := Ideal) x0 x1 x2 x3 x7 (ix2 r k) * x4 (ix2 k q) :=
    Finset.sum_congr rfl fun k _ => by
      have el : lidx_main_v51 (ix2 r q) k = ix2 r k := funext fun a => Fin.ext (by match a with | ⟨0, _⟩ => rfl | ⟨1, _⟩ => rfl)
      have er : ridx_main_v51 (ix2 r q) k = ix2 k q := funext fun a => Fin.ext (by match a with | ⟨0, _⟩ => rfl | ⟨1, _⟩ => rfl)
      rw [el, er]
  have s2 : (∑ k : Fin 128, val_main_v28 (F := Ideal) x0 x1 x2 x3 x7 (lidx_main_v52 (ix2 r q) k) * x5 (ridx_main_v52 (ix2 r q) k))
      = ∑ k : Fin 128, val_main_v28 (F := Ideal) x0 x1 x2 x3 x7 (ix2 r k) * x5 (ix2 k q) :=
    Finset.sum_congr rfl fun k _ => by
      have el : lidx_main_v52 (ix2 r q) k = ix2 r k := funext fun a => Fin.ext (by match a with | ⟨0, _⟩ => rfl | ⟨1, _⟩ => rfl)
      have er : ridx_main_v52 (ix2 r q) k = ix2 k q := funext fun a => Fin.ext (by match a with | ⟨0, _⟩ => rfl | ⟨1, _⟩ => rfl)
      rw [el, er]
  rw [s1, s2, eb]
  rfl

/-- The score of label edge i: zero plus the dot product of the two gathered rows. -/
theorem score_at (i : Fin 200000) :
    val_main_v76 (F := Ideal) x0 x1 x2 x3 x4 x5 x6 x7 x8 (ix1 i)
      = Cert.Sage.rowDotAt (N := 200000) (K := 64) (val_main_v65 (F := Ideal) x0 x1 x2 x3 x4 x5 x6 x7 x8) (val_main_v74 (F := Ideal) x0 x1 x2 x3 x4 x5 x6 x7 x8) i := by
  rw [val_main_v76_apply, val_main_cst_14_apply]
  show Ideal.ofBits .f32 0x00000000#32 + _ = _
  rw [Ideal.ofBits_zero_f32, zero_add]
  unfold Cert.Sage.rowDotAt
  refine Finset.sum_congr rfl fun k _ => ?_
  have ei : idx_main_v76 (ix1 i) k = ix2 i k := funext fun a => Fin.ext (by match a with | ⟨0, _⟩ => rfl | ⟨1, _⟩ => rfl)
  rw [ei, val_main_v75_apply]
  rfl

end Cert.ReferenceIdeal.Hand

end
-- ==== Proof.KValue.lean ====
/-
  What the program's last boundary holds at the result buffer.

  The contents of every buffer are followed through the program's seven segments. Each launch leaves its result array
  at the layer (or the column of row dot products) of the arrays it was entered with; each stretch of host operations
  is the reference's corresponding stage of what it starts from. Chained from the launch memory: the first launch's
  result is the reference's hidden features, the second's its output features, the gathered endpoint rows are the
  reference's, the third launch's column holds every label edge's dot product, and that column re-laid as a vector is
  the reference's result — whose only extra term is its initial value zero.
-/
import proofs.«160332_j16192026706661_2_alg».proof.Proof.Gen.KernelIdeal.Frame
import proofs.«160332_j16192026706661_2_alg».proof.Proof.KReg0
import proofs.«160332_j16192026706661_2_alg».proof.Proof.KReg1
import proofs.«160332_j16192026706661_2_alg».proof.Proof.KReg2
import proofs.«160332_j16192026706661_2_alg».proof.Proof.KHost
import proofs.«160332_j16192026706661_2_alg».proof.Proof.RefStages

set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.ValueIdx

/-- A column [a, 1] re-laid as a vector [a] reads, at i, the column at (i, 0): both positions are i in row-major order. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ) (ρ : Dev nD → PrngReg) (c : Dev nD)

/-! ## At the first launch's entry -/

theorem W1_mean : W1 m ρ c (Proc.devRef .tc main_v21) = val_main_v21 (F := Ideal) (m ((c : Thread nD τ).loc main_arg0)) (m ((c : Thread nD τ).loc main_arg7)) :=
  host0_mean (W0 m ρ c)
theorem W1_arg0 : W1 m ρ c (Proc.devRef .tc main_arg0) = m ((c : Thread nD τ).loc main_arg0) := (host0_keeps (W0 m ρ c)).1
theorem W1_arg1 : W1 m ρ c (Proc.devRef .tc main_arg1) = m ((c : Thread nD τ).loc main_arg1) := (host0_keeps (W0 m ρ c)).2.1
theorem W1_arg2 : W1 m ρ c (Proc.devRef .tc main_arg2) = m ((c : Thread nD τ).loc main_arg2) := (host0_keeps (W0 m ρ c)).2.2.1
theorem W1_arg3 : W1 m ρ c (Proc.devRef .tc main_arg3) = m ((c : Thread nD τ).loc main_arg3) := (host0_keeps (W0 m ρ c)).2.2.2.1
theorem W1_arg4 : W1 m ρ c (Proc.devRef .tc main_arg4) = m ((c : Thread nD τ).loc main_arg4) := (host0_keeps (W0 m ρ c)).2.2.2.2.1
theorem W1_arg5 : W1 m ρ c (Proc.devRef .tc main_arg5) = m ((c : Thread nD τ).loc main_arg5) := (host0_keeps (W0 m ρ c)).2.2.2.2.2.1
theorem W1_arg6 : W1 m ρ c (Proc.devRef .tc main_arg6) = m ((c : Thread nD τ).loc main_arg6) := (host0_keeps (W0 m ρ c)).2.2.2.2.2.2.1
theorem W1_arg7 : W1 m ρ c (Proc.devRef .tc main_arg7) = m ((c : Thread nD τ).loc main_arg7) := (host0_keeps (W0 m ρ c)).2.2.2.2.2.2.2.1
theorem W1_arg8 : W1 m ρ c (Proc.devRef .tc main_arg8) = m ((c : Thread nD τ).loc main_arg8) := (host0_keeps (W0 m ρ c)).2.2.2.2.2.2.2.2

/-! ## After the first launch -/

/-- The first launch's result array holds the reference's hidden features. -/
theorem W2_hidden : W2 m ρ c (Proc.devRef .tc main_v22) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  refine (W2_arr m ρ c 5).trans ((array0 (V1 m ρ) c).trans ?_)
  show Cert.Sage.linRelu (N := 100000) (K := 64) (D := 128) (W1 m ρ c (Proc.devRef .tc main_v21)) (W1 m ρ c (Proc.devRef .tc main_arg0))
    (W1 m ρ c (Proc.devRef .tc main_arg1)) (W1 m ρ c (Proc.devRef .tc main_arg2)) (W1 m ρ c (Proc.devRef .tc main_arg3)) = _
  rw [W1_mean, W1_arg0, W1_arg1, W1_arg2, W1_arg3]
  exact (Cert.ReferenceIdeal.Hand.hidden_eq (m ((c : Thread nD τ).loc main_arg0)) (m ((c : Thread nD τ).loc main_arg1)) (m ((c : Thread nD τ).loc main_arg2)) (m ((c : Thread nD τ).loc main_arg3)) (m ((c : Thread nD τ).loc main_arg7))).symm

theorem W2_arg4 : W2 m ρ c (Proc.devRef .tc main_arg4) = m ((c : Thread nD τ).loc main_arg4) := (W2_of_ne m ρ c main_arg4 (by decide)).trans (W1_arg4 m ρ c)
theorem W2_arg5 : W2 m ρ c (Proc.devRef .tc main_arg5) = m ((c : Thread nD τ).loc main_arg5) := (W2_of_ne m ρ c main_arg5 (by decide)).trans (W1_arg5 m ρ c)
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)

/-! ## At the second launch's entry -/

theorem W3_mean : W3 m ρ c (Proc.devRef .tc main_v44) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg7)) :=
  host1_mean (W2 m ρ c) _ _ _ _ _ (W2_hidden m ρ c) (W2_arg7 m ρ c)
theorem W3_hidden : W3 m ρ c (Proc.devRef .tc main_v22) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg7)) :=
  (host1_keeps (W2 m ρ c)).1.trans (W2_hidden m ρ c)
theorem W3_arg4 : W3 m ρ c (Proc.devRef .tc main_arg4) = m ((c : Thread nD τ).loc main_arg4) := (host1_keeps (W2 m ρ c)).2.1.trans (W2_arg4 m ρ c)
theorem W3_arg5 : W3 m ρ c (Proc.devRef .tc main_arg5) = m ((c : Thread nD τ).loc main_arg5) := (host1_keeps (W2 m ρ c)).2.2.1.trans (W2_arg5 m ρ c)
theorem W3_arg6 : W3 m ρ c (Proc.devRef .tc main_arg6) = m ((c : Thread nD τ).loc main_arg6) := (host1_keeps (W2 m ρ c)).2.2.2.1.trans (W2_arg6 m ρ c)
theorem W3_arg8 : W3 m ρ c (Proc.devRef .tc main_arg8) = m ((c : Thread nD τ).loc main_arg8) := (host1_keeps (W2 m ρ c)).2.2.2.2.trans (W2_arg8 m ρ c)

/-! ## After the second launch -/

/-- The second launch's result array holds the reference's output features. -/
theorem W4_output : W4 m ρ c (Proc.devRef .tc main_v45) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((array1 (V3 m ρ) c).trans ?_)
  show Cert.Sage.lin (N := 100000) (K := 128) (D := 64) (W3 m ρ c (Proc.devRef .tc main_v44)) (W3 m ρ c (Proc.devRef .tc main_v22))
    (W3 m ρ c (Proc.devRef .tc main_arg4)) (W3 m ρ c (Proc.devRef .tc main_arg5)) (W3 m ρ c (Proc.devRef .tc main_arg6)) = _
  rw [W3_mean, W3_hidden, W3_arg4, W3_arg5, W3_arg6]
  exact (Cert.ReferenceIdeal.Hand.output_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

theorem W4_arg8 : W4 m ρ c (Proc.devRef .tc main_arg8) = m ((c : Thread nD τ).loc main_arg8) := (W4_of_ne m ρ c main_arg8 (by decide)).trans (W3_arg8 m ρ c)

/-! ## At the third launch's entry, and after it -/

theorem W5_gathers :
    W5 m ρ c (Proc.devRef .tc main_v54) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ W5 m ρ c (Proc.devRef .tc main_v63) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  host2_gathers (W4 m ρ c) _ _ _ _ _ _ _ _ _ (W4_output m ρ c) (W4_arg8 m ρ c)

/-- The third launch's result column holds every label edge's dot product of the reference's gathered rows. -/
theorem W6_scores : W6 m ρ c (Proc.devRef .tc main_v64)
    = fun (j : S200000x1.Idx) => Cert.Sage.rowDotAt (N := 200000) (K := 64) (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (j 0) := by
  refine (W6_arr m ρ c 2).trans ((array2 (V5 m ρ) c).trans ?_)
  show (fun (j : S200000x1.Idx) => Cert.Sage.rowDotAt (N := 200000) (K := 64) (W5 m ρ c (Proc.devRef .tc main_v54)) (W5 m ρ c (Proc.devRef .tc main_v63)) (j 0)) = _
  rw [(W5_gathers m ρ c).1, (W5_gathers m ρ c).2]

/-- The result buffer at the last boundary holds the reference's result. -/
theorem W7_result : W7 m ρ c (Proc.devRef .tc main_v65) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (host3_result (W6 m ρ c)).trans ?_
  rw [W6_scores]
  funext j
  obtain ⟨i, rfl⟩ : ∃ i : Fin 200000, j = ix1 i := ⟨j 0, eq_ix1 j⟩
  rw [shapeCast_a1_a_apply, Cert.ReferenceIdeal.Hand.score_at]

end Cert.KernelIdeal.Hand

end
-- ==== Proof.lean ====
/-
  A two-layer graph convolution with mean aggregation, scored on label edges, against its jnp reference.

  Both programs gather source rows along the edge list, scatter-add them by destination and divide by the clamped
  in-degree with the very same host operations; they differ only in the three dense steps, which the kernel runs as
  tiled launches: two affine layers mean·Wl + x·Wr + b computed 5000 rows at a time (operands narrowed to bf16 on the
  way into the matrix unit, which changes nothing at the ideal values; the first layer rectified), and the row dot
  products of the gathered endpoint features computed 8000 rows at a time and kept as a column. Read at an entry each
  tile is the reference's stage restricted to the tile's rows, the tiles cover their arrays, and the three stages chain
  through the shared host operations, which are never opened. No step rearranges a sum, so the inputs' finiteness is
  not used; the one extra term is the reference's initial value zero in its final row sums.

  The frames of the two kernel programs are the generated ones; the reference's frame is its generated run with the
  result dropped; the ideal pass rewrote nothing, so the idealization claim is trivial.
-/
import proofs.«160332_j16192026706661_2_alg».proof.Defs
import proofs.«160332_j16192026706661_2_alg».proof.Proof.Gen.Kernel
import proofs.«160332_j16192026706661_2_alg».proof.Proof.Gen.Kernel.Frame
import proofs.«160332_j16192026706661_2_alg».proof.Proof.Gen.KernelIdeal
import proofs.«160332_j16192026706661_2_alg».proof.Proof.Gen.KernelIdeal.Frame
import proofs.«160332_j16192026706661_2_alg».proof.Proof.Gen.ReferenceIdeal
import proofs.«160332_j16192026706661_2_alg».proof.Proof.Gen.ReferenceIdeal.Run
import proofs.«160332_j16192026706661_2_alg».proof.Proof.Gen.ReferenceIdeal.Read
import proofs.«160332_j16192026706661_2_alg».proof.Proof.Gen.Pre_finite_inputs
import proofs.«160332_j16192026706661_2_alg».proof.Proof.KRun
import proofs.«160332_j16192026706661_2_alg».proof.Proof.KValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's composed result term of the (agreeing) argument arrays. -/
theorem algebraic : Cert.algebraic_KernelIdeal_ReferenceIdeal := by
  intro m ρ m' ρ' _ hagree
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.W7_result m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v76_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
